-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S5000x128 : Shape := ⟨2, ![5000, 128]⟩
abbrev S5000x32 : Shape := ⟨2, ![5000, 32]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x16, .f32⟩
  | .hbm, ⟨79, _⟩ => ⟨S3300000x1, .f32⟩
  | .hbm, ⟨80, _⟩ => ⟨S3300000x16, .f32⟩
  | .hbm, ⟨81, _⟩ => ⟨S3300000x16, .f32⟩
  | .hbm, ⟨82, _⟩ => ⟨S_, .f32⟩
  | .hbm, ⟨83, _⟩ => ⟨S100000x16, .f32⟩
  | .hbm, ⟨84, _⟩ => ⟨S3300000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x16, .f32⟩
  | .local _ .vmem, ⟨8, _⟩ => ⟨S5000x16, .f32⟩
  | .local _ .vmem, ⟨9, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x32_S5000x32_1_0_0_1_n_n_wf : DotDims.WF S5000x128 S128x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x16.size a ≤ S32x16.size a
  hwx1_1 : ∀ i : grid1.Coords, EltTy.bits .f32 = 32 ∨ (Rect.block (s := S32x16) S32x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S100000x32 : Shape := ⟨2, ![100000, 32]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x32, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x16, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x16, .f32⟩
  | .hbm, ⟨115, _⟩ => ⟨S3300000x1, .f32⟩
  | .hbm, ⟨116, _⟩ => ⟨S3300000x16, .f32⟩
  | .hbm, ⟨117, _⟩ => ⟨S3300000x16, .f32⟩
  | .hbm, ⟨118, _⟩ => ⟨S_, .f32⟩
  | .hbm, ⟨119, _⟩ => ⟨S100000x16, .f32⟩
  | .hbm, ⟨120, _⟩ => ⟨S3300000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x32_S100000x32_1_0_0_1_n_n_wf : DotDims.WF S100000x128 S128x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.KernelRun.lean ====
/-
  The kernel program's run with its result buffer named.

  The program is three stretches of host operations around two kernel launches.  Run from any memory it ends, on
  every core, with every buffer that outlives the launches at the contents the segments' fold gives it: the
  host operations applied in order, each launch replacing its arrays by what its write-backs leave.  Read at the
  result buffer this names the result; read at an argument it gives the argument back.
-/
import proofs.«154226_j17592186044939_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each buffer that outlives the launches at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The run with the result named: the result buffer ends at the last boundary's contents of it, and every
    argument as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_boundary m ρ)

end Cert.KernelIdeal.Result

end
-- ==== Proof.Layers.lean ====
/-
  The graph convolution's host-side steps, each as one function of the arrays it reads.

  With the edge list `e` (two rows: sources, destinations) extended by one self loop per node, a layer takes the
  node features `h` after the dense product and returns, at node `n`, the sum over the edges into `n` of the
  source's row of `h` scaled by the edge's weight, plus the bias row.  The edge weight is the product of the
  inverse square roots of the two end nodes' in-degrees (zero where the degree is not positive).  The first layer
  ends with a maximum against zero.  Nothing here is opened by the proofs that use it: both programs apply these
  same steps, and differ only in how the dense product feeding `h` is computed.
-/
import proofs.«154226_j17592186044939_2_alg».proof.Proof.Gen.ReferenceIdeal

noncomputable section

namespace Cert.Gcn

open Cert.ReferenceIdeal Cert.ReferenceIdeal.Gen Idealize.ShloMosaic

variable {F : FTy → Type} [FloatOps F]

/-- The source node of every edge, the self loops last. -/
def srcIdx (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The destination node of every edge, the self loops last. -/
def dstIdx (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node index as a gather reads it: a negative word counts from the end. -/
def wrapIdx (s : (⟨S3300000, .i32⟩ : BufTy).Contents (Elt F)) : (⟨S3300000, .i32⟩ : BufTy).Contents (Elt F) :=
  select (cmpi .slt s (broadcastInDim S3300000 ![] bcast_S_S3300000 (constantI S_ 32 0#32))) (addi s (broadcastInDim S3300000 ![] bcast_S_S3300000 (constantI S_ 32 100000#32))) s

/-- Every node's in-degree, self loop included: ones added up by destination. -/
def degree (e : (⟨S2x3200000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 (dstIdx (F := F) e)) (broadcastInDim S3300000 ![] bcast_S_S3300000 (constant S_ .f32 0x3F800000#32))

/-- The inverse square root of the degree where it is positive, zero elsewhere. -/
def degInvSqrt (e : (⟨S2x3200000, .i32⟩ : BufTy).Contents (Elt F)) : (⟨S100000, .f32⟩ : BufTy).Contents (Elt F) :=
  select (cmpf (F := F) .ogt (degree (F := F) e) (broadcastInDim S100000 ![] bcast_S_S100000 (constant S_ .f32 0x00000000#32))) (Host.rsqrt (degree (F := F) e)) (broadcastInDim S100000 ![] bcast_S_S100000 (id (constant S_ .f32 0x00000000#32)))

/-- The weight of every edge: the two end nodes' inverse square root degrees multiplied. -/
def edgeWeight (e : (⟨S2x3200000, .i32⟩ : BufTy).Contents (Elt F)) : (⟨S3300000, .f32⟩ : BufTy).Contents (Elt F) :=
  mulf (Host.gather gather_S100000_S3300000x1_S3300000_n_0_n_n_0_1_1 (degInvSqrt (F := F) e) (broadcastInDim S3300000x1 ![0] bcast_S3300000_S3300000x1_0 (wrapIdx (F := F) (srcIdx (F := F) e)))) (Host.gather gather_S100000_S3300000x1_S3300000_n_0_n_n_0_1_1 (degInvSqrt (F := F) e) (broadcastInDim S3300000x1 ![0] bcast_S3300000_S3300000x1_0 (wrapIdx (F := F) (dstIdx (F := F) e))))

/-- The first layer after its dense product `h`, before its maximum with zero: weighted rows of `h` added up by
    destination, the bias row added. -/
def preActivation (e : (⟨S2x3200000, .i32⟩ : BufTy).Contents (Elt F)) (h : (⟨S100000x32, .f32⟩ : BufTy).Contents (Elt F))
    (b : (⟨S32, .f32⟩ : BufTy).Contents (Elt F)) : (⟨S100000x32, .f32⟩ : BufTy).Contents (Elt F) :=
  addf (Host.scatterAdd scatter_S100000x32_S3300000x1_S3300000x32_1_0_0_1 (broadcastInDim S100000x32 ![] bcast_S_S100000x32 (constant S_ .f32 0x00000000#32)) (broadcastInDim S3300000x1 ![0] bcast_S3300000_S3300000x1_0 (dstIdx (F := F) e)) (mulf (Host.gather gather_S100000x32_S3300000x1_S3300000x32_1_0_n_n_0_1_132 h (broadcastInDim S3300000x1 ![0] bcast_S3300000_S3300000x1_0 (wrapIdx (F := F) (srcIdx (F := F) e)))) (broadcastInDim S3300000x32 ![0, 1] bcast_S3300000x1_S3300000x32_0_1 (broadcastInDim S3300000x1 ![0] bcast_S3300000_S3300000x1_0 (edgeWeight (F := F) e))))) (broadcastInDim S100000x32 ![0, 1] bcast_S1x32_S100000x32_0_1 (broadcastInDim S1x32 ![1] bcast_S32_S1x32_1 b))

/-- The hidden features: the first layer's maximum with zero. -/
def hiddenLayer (e : (⟨S2x3200000, .i32⟩ : BufTy).Contents (Elt F)) (h : (⟨S100000x32, .f32⟩ : BufTy).Contents (Elt F))
    (b : (⟨S32, .f32⟩ : BufTy).Contents (Elt F)) : (⟨S100000x32, .f32⟩ : BufTy).Contents (Elt F) :=
  maximumf (preActivation (F := F) e h b) (broadcastInDim S100000x32 ![] bcast_S_S100000x32 (constant S_ .f32 0x00000000#32))

/-- The second layer after its dense product `h`: weighted rows of `h` added up by destination, the bias row added. -/
def outputLayer (e : (⟨S2x3200000, .i32⟩ : BufTy).Contents (Elt F)) (h : (⟨S100000x16, .f32⟩ : BufTy).Contents (Elt F))
    (b : (⟨S16, .f32⟩ : BufTy).Contents (Elt F)) : (⟨S100000x16, .f32⟩ : BufTy).Contents (Elt F) :=
  addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (dstIdx (F := F) e)) (mulf (Host.gather gather_S100000x16_S3300000x1_S3300000x16_1_0_n_n_0_1_116 h (broadcastInDim S3300000x1 ![0] bcast_S3300000_S3300000x1_0 (wrapIdx (F := F) (srcIdx (F := F) e)))) (broadcastInDim S3300000x16 ![0, 1] bcast_S3300000x1_S3300000x16_0_1 (broadcastInDim S3300000x1 ![0] bcast_S3300000_S3300000x1_0 (edgeWeight (F := F) e))))) (broadcastInDim S100000x16 ![0, 1] bcast_S1x16_S100000x16_0_1 (broadcastInDim S1x16 ![1] bcast_S16_S1x16_1 b))

/-- The whole network over a dense product given as a parameter: what both programs compute, `dense₁` and `dense₂`
    standing for the two matrix products. -/
def network (dense₁ : (⟨S100000x128, .f32⟩ : BufTy).Contents (Elt F) → (⟨S128x32, .f32⟩ : BufTy).Contents (Elt F) → (⟨S100000x32, .f32⟩ : BufTy).Contents (Elt F))
    (dense₂ : (⟨S100000x32, .f32⟩ : BufTy).Contents (Elt F) → (⟨S32x16, .f32⟩ : BufTy).Contents (Elt F) → (⟨S100000x16, .f32⟩ : BufTy).Contents (Elt F))
    (x : (⟨S100000x128, .f32⟩ : BufTy).Contents (Elt F)) (e : (⟨S2x3200000, .i32⟩ : BufTy).Contents (Elt F))
    (w₁ : (⟨S128x32, .f32⟩ : BufTy).Contents (Elt F)) (b₁ : (⟨S32, .f32⟩ : BufTy).Contents (Elt F))
    (w₂ : (⟨S32x16, .f32⟩ : BufTy).Contents (Elt F)) (b₂ : (⟨S16, .f32⟩ : BufTy).Contents (Elt F)) :
    (⟨S100000x16, .f32⟩ : BufTy).Contents (Elt F) :=
  outputLayer (F := F) e (dense₂ (hiddenLayer (F := F) e (dense₁ x w₁) b₁) w₂) b₂

/-- The host's product of the node features with the first weight matrix. -/
def hostDense₁ (x : (⟨S100000x128, .f32⟩ : BufTy).Contents (Elt F)) (w : (⟨S128x32, .f32⟩ : BufTy).Contents (Elt F)) :
    (⟨S100000x32, .f32⟩ : BufTy).Contents (Elt F) :=
  Host.dotGeneral dot_S100000x128_S128x32_S100000x32_1_0_0_1_n_n none x w

/-- The host's product of the hidden features with the second weight matrix. -/
def hostDense₂ (x : (⟨S100000x32, .f32⟩ : BufTy).Contents (Elt F)) (w : (⟨S32x16, .f32⟩ : BufTy).Contents (Elt F)) :
    (⟨S100000x16, .f32⟩ : BufTy).Contents (Elt F) :=
  Host.dotGeneral dot_S100000x32_S32x16_S100000x16_1_0_0_1_n_n none x w

end Cert.Gcn

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«154226_j17592186044939_2_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.DenseBlocks.lean ====
/-
  Each kernel launch leaves, in its output array, the host's matrix product of its two operand arrays.

  A launch walks 20 grid points; point t reads rows 5000·t … 5000·t + 4999 of the left operand and the whole right
  operand, multiplies them into a zero accumulator (the change of float format before the product is the identity
  at the ideal values), and writes the 5000 resulting rows back at the same place of the output.  A row block of a
  product is the product of the row block, so what point t writes is block t of the whole product; the 20 blocks
  cover the 100000 rows, so the array ends as the whole product.  Stated for any contents `V` the launch is entered
  with.
-/
import proofs.«154226_j17592186044939_2_alg».proof.Proof.Gen.KernelIdeal.Frame
import proofs.«154226_j17592186044939_2_alg».proof.Proof.Layers
import proofs.«154226_j17592186044939_2_alg».proof.Proof.LibRowBlocks
import Idealize.ShloMosaic.Lib.Pipeline.Value

set_option maxRecDepth 16384

noncomputable section

namespace Cert.KernelIdeal.Dense

open Cert.KernelIdeal Cert.KernelIdeal.Gen
open Idealize.ShloMosaic Idealize.ShloMosaic.TcCoe Idealize.SL.Sem
open Idealize.ShloMosaic.Pipeline (Dat)
open Cert.Lib.PlainDot

variable (V : (c : Dev nD) → (b : Ref sig .tc) → Buf (Elt Ideal) ((c : Thread nD τ).loc b))

theorem origin : (![0, 0] : Fin 2 → Nat) = fun _ => 0 := funext fun a => by fin_cases a <;> rfl

/-! ## The first launch: node features times the first weight matrix -/

/-- The first body's product read at an entry of the block, for blocks that are restrictions of whole arrays. -/
theorem body₁_apply (x0 : Vec Ideal S5000x128 .f32) (x1 : Vec Ideal S128x32 .f32)
    (X : (⟨Cert.ReferenceIdeal.S100000x128, .f32⟩ : BufTy).Contents (Elt Ideal))
    (W : (⟨Cert.ReferenceIdeal.S128x32, .f32⟩ : BufTy).Contents (Elt Ideal))
    (e0 : S5000x128.Idx → S100000x128.Idx) (e1 : S128x32.Idx → S128x32.Idx) (eo : S5000x32.Idx → S100000x32.Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : S5000x32.Idx) :
    k0_pay1 (F := Ideal) x0 x1 y = Cert.Gcn.hostDense₁ (F := Ideal) X W (eo y) := by
  unfold k0_pay1 Cert.Gcn.hostDense₁
  exact Cert.Bridge.dot_block (R := 5000) (N := 100000) (K := 128) (C := 32) _ rfl _ rfl none none X W _ _ e0 e1 eo hx0 hx1 h0 h1 y

/-- The printed index maps of the first launch over its 20 points: the row blocks move with the point, the weight
    block stays. -/
theorem maps₁ : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of the first launch writes back is block `t` of the host's product of the entry operands. -/
theorem flushed₁ (c : Dev nD) (t : Fin cfg0.N) :
    (dat0 V c).flushed 2 t
      = ((cfg0.win 2).blk t).view.read (Elt Ideal) (Cert.Gcn.hostDense₁ (F := Ideal) (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x32) origin]
  obtain ⟨a0, a1, b0, b1, o0, o1⟩ := maps₁ t
  funext y
  rw [View.read_apply]
  refine body₁_apply (iblk0 V c 0 t) (iblk0 V c 1 t) (V c main_arg0) (V c main_arg2)
    ((cfg0.win 0).blk t).view.emb ((cfg0.win 1).blk t).view.emb ((cfg0.win 2).blk t).view.emb
    (fun j => rfl) (fun j => rfl) (fun y k => ?_) (fun y k => ?_) y
  · funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · funext a; apply Fin.ext
    match a with
    | ⟨0, _⟩ => show win0_1.index t (0 : Fin 2) * 128 + 1 * k.val = k.val; omega
    | ⟨1, _⟩ => show win0_1.index t (1 : Fin 2) * 32 + 1 * (y 1).val = win0_2.index t (1 : Fin 2) * 32 + 1 * (y 1).val; omega

/-- An entry of the first output array is in point `t`'s block iff each coordinate is in the block's range. -/
theorem mem_block₁ (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Every entry of the first output array is in the block of the point its row falls to. -/
theorem cover₁ (i : S100000x32.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 32 := (i 1).isLt
  refine ⟨⟨(i 0).val / 5000, by rw [hN]; omega⟩, flush0_2 _, ?_⟩
  rw [mem_block₁]
  obtain ⟨-, -, -, -, o0, o1⟩ := maps₁ ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [o0]; show (i 0).val / 5000 * 5000 ≤ (i 0).val ∧ (i 0).val < (i 0).val / 5000 * 5000 + 5000; omega
  | ⟨1, _⟩ =>
    show win0_2.index _ (1 : Fin 2) * 32 ≤ (i 1).val ∧ (i 1).val < win0_2.index _ (1 : Fin 2) * 32 + 32
    rw [o1]; omega

/-- The first launch leaves the host's product of its entry operands in its output array. -/
theorem product₁ (c : Dev nD) :
    (dat0 V c).arrAt 2 cfg0.N = Cert.Gcn.hostDense₁ (F := Ideal) (V c main_arg0) (V c main_arg2) :=
  (dat0 V c).arrAt_eq_of_cover 2 _ (fun t _ => flushed₁ V c t) cover₁

/-! ## The second launch: hidden features times the second weight matrix -/

/-- The second body's product read at an entry of the block, for blocks that are restrictions of whole arrays (the
    body first casts its left block to its own shape, which changes nothing). -/
theorem body₂_apply (x0 : Vec Ideal S5000x32 .f32) (x1 : Vec Ideal S32x16 .f32)
    (X : (⟨Cert.ReferenceIdeal.S100000x32, .f32⟩ : BufTy).Contents (Elt Ideal))
    (W : (⟨Cert.ReferenceIdeal.S32x16, .f32⟩ : BufTy).Contents (Elt Ideal))
    (e0 : S5000x32.Idx → S100000x32.Idx) (e1 : S32x16.Idx → S32x16.Idx) (eo : S5000x16.Idx → S100000x16.Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : S5000x16.Idx) :
    k1_pay1 (F := Ideal) x0 x1 y = Cert.Gcn.hostDense₂ (F := Ideal) X W (eo y) := by
  unfold k1_pay1 Cert.Gcn.hostDense₂
  refine Cert.Bridge.dot_block (R := 5000) (N := 100000) (K := 32) (C := 16) _ rfl _ rfl none none X W _ _ e0 e1 eo (fun j => ?_) hx1 h0 h1 y
  show shapeCast S5000x32 x0 shapeCasts_S5000x32_S5000x32 j = X (e0 j)
  rw [shapeCast_self]
  exact hx0 j

/-- The printed index maps of the second launch over its 20 points. -/
theorem maps₂ : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` of the second launch writes back is block `t` of the host's product of the entry operands. -/
theorem flushed₂ (c : Dev nD) (t : Fin cfg1.N) :
    (dat1 V c).flushed 2 t
      = ((cfg1.win 2).blk t).view.read (Elt Ideal) (Cert.Gcn.hostDense₂ (F := Ideal) (V c main_v47) (V c main_arg4)) := by
  show (cfg1.win 2).cut (grid1.coords t) ((dat1 V c).after 2 t) = _
  rw [after1_2]
  unfold out1_2
  rw [View.canon_unit_zero origin]
  simp only [View.ld_unit_zero (S := S5000x32) origin, View.ld_unit_zero (S := S32x16) origin]
  obtain ⟨a0, a1, b0, b1, o0, o1⟩ := maps₂ t
  funext y
  rw [View.read_apply]
  refine body₂_apply (iblk1 V c 0 t) (iblk1 V c 1 t) (V c main_v47) (V c main_arg4)
    ((cfg1.win 0).blk t).view.emb ((cfg1.win 1).blk t).view.emb ((cfg1.win 2).blk t).view.emb
    (fun j => rfl) (fun j => rfl) (fun y k => ?_) (fun y k => ?_) y
  · funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 32 + 1 * k.val = k.val; omega
  · funext a; apply Fin.ext
    match a with
    | ⟨0, _⟩ => show win1_1.index t (0 : Fin 2) * 32 + 1 * k.val = k.val; omega
    | ⟨1, _⟩ => show win1_1.index t (1 : Fin 2) * 16 + 1 * (y 1).val = win1_2.index t (1 : Fin 2) * 16 + 1 * (y 1).val; omega

/-- An entry of the second output array is in point `t`'s block iff each coordinate is in the block's range. -/
theorem mem_block₂ (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v48).slice (win1_2.rect t)).set ↔ _
  rw [View.set_slice_whole, Rect.mem_set_unit]
  exact Iff.rfl

/-- Every entry of the second output array is in the block of the point its row falls to. -/
theorem cover₂ (i : S100000x16.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 16 := (i 1).isLt
  refine ⟨⟨(i 0).val / 5000, by rw [hN]; omega⟩, flush1_2 _, ?_⟩
  rw [mem_block₂]
  obtain ⟨-, -, -, -, o0, o1⟩ := maps₂ ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [o0]; show (i 0).val / 5000 * 5000 ≤ (i 0).val ∧ (i 0).val < (i 0).val / 5000 * 5000 + 5000; omega
  | ⟨1, _⟩ =>
    show win1_2.index _ (1 : Fin 2) * 16 ≤ (i 1).val ∧ (i 1).val < win1_2.index _ (1 : Fin 2) * 16 + 16
    rw [o1]; omega

/-- The second launch leaves the host's product of its entry operands in its output array. -/
theorem product₂ (c : Dev nD) :
    (dat1 V c).arrAt 2 cfg1.N = Cert.Gcn.hostDense₂ (F := Ideal) (V c main_v47) (V c main_arg4) :=
  (dat1 V c).arrAt_eq_of_cover 2 _ (fun t _ => flushed₂ V c t) cover₂

end Cert.KernelIdeal.Dense

end
-- ==== Proof.FoldEntry.lean ====
/-
  The kernel program's buffers when its first launch is entered.

  The host operations before the first launch compute, from the edge list alone, the source and destination columns
  (a self loop per node appended), every node's in-degree, and the edge weights: the product, over an edge's two ends,
  of the inverse square root of the degree where it is positive and zero elsewhere.  They write no argument.
-/
import proofs.«154226_j17592186044939_2_alg».proof.Proof.Gen.KernelIdeal.Frame
import proofs.«154226_j17592186044939_2_alg».proof.Proof.Layers
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

/-! ## Before the first launch -/

/-- The source column is computed before the first launch. -/
theorem src_at_entry₁ (c : Dev nD) :
    W3 m ρ c (Proc.devRef .tc main_v5) = srcIdx (F := Ideal) (m ((c.tc : Thread nD τ).loc main_arg1)) := by
  show after hostOps0_2 (after hostOps0_1 (after hostOps0 (W0 m ρ c))) (Proc.devRef .tc main_v5) = _
  dsimp only [hostOps0, hostOps0_1, hostOps0_2]
  after_results_simp
  rfl

/-- The destination column is computed before the first launch. -/
theorem dst_at_entry₁ (c : Dev nD) :
    W3 m ρ c (Proc.devRef .tc main_v6) = dstIdx (F := Ideal) (m ((c.tc : Thread nD τ).loc main_arg1)) := by
  show after hostOps0_2 (after hostOps0_1 (after hostOps0 (W0 m ρ c))) (Proc.devRef .tc main_v6) = _
  dsimp only [hostOps0, hostOps0_1, hostOps0_2]
  after_results_simp
  rfl

/-- After the first stretch of host operations: the two columns, -/
theorem src_first (c : Dev nD) :
    after hostOps0 (W0 m ρ c) (Proc.devRef .tc main_v5) = srcIdx (F := Ideal) (m ((c.tc : Thread nD τ).loc main_arg1)) := by
  dsimp only [hostOps0]
  after_results_simp
  rfl
theorem dst_first (c : Dev nD) :
    after hostOps0 (W0 m ρ c) (Proc.devRef .tc main_v6) = dstIdx (F := Ideal) (m ((c.tc : Thread nD τ).loc main_arg1)) := by
  dsimp only [hostOps0]
  after_results_simp
  rfl
/-- the test that a node's degree is positive, -/
theorem positive_first (c : Dev nD) :
    after hostOps0 (W0 m ρ c) (Proc.devRef .tc main_v12)
      = cmpf (F := Ideal) .ogt (degree (F := Ideal) (m ((c.tc : Thread nD τ).loc main_arg1)))
          (broadcastInDim S100000 ![] bcast_S_S100000 (constant S_ .f32 0x00000000#32)) := by
  dsimp only [hostOps0]
  after_results_simp
  unfold degree dstIdx
  rfl
/-- the inverse square root of the degree, -/
theorem rsqrt_first (c : Dev nD) :
    after hostOps0 (W0 m ρ c) (Proc.devRef .tc main_v13)
      = Host.rsqrt (F := Ideal) (φ := .f32) (degree (F := Ideal) (m ((c.tc : Thread nD τ).loc main_arg1))) := by
  dsimp only [hostOps0]
  after_results_simp
  unfold degree dstIdx
  rfl
/-- and the zero the inverse square root is replaced by where the degree is not positive. -/
theorem zero_first (c : Dev nD) :
    after hostOps0 (W0 m ρ c) (Proc.devRef .tc main_cst_2) = constant (F := Ideal) S_ .f32 0x00000000#32 := by
  dsimp only [hostOps0]
  after_results_simp <;> rfl

/-- The call that replaces the inverse square root by zero where the degree is not positive, over any contents:
    it reads the test, the inverse square root and the zero, and writes their selection. -/
theorem select_call (W : Valuation τ sig (Elt Ideal)) :
    after hostOps0_1 W (Proc.devRef .tc main_v14)
      = select (W (Proc.devRef .tc main_v12)) (W (Proc.devRef .tc main_v13))
          (broadcastInDim S100000 ![] bcast_S_S100000 (id (W (Proc.devRef .tc main_cst_2)))) := by
  dsimp only [hostOps0_1]
  after_results_simp
  rfl

/-- That call writes neither column. -/
theorem select_call_src (W : Valuation τ sig (Elt Ideal)) :
    after hostOps0_1 W (Proc.devRef .tc main_v5) = W (Proc.devRef .tc main_v5) := by
  dsimp only [hostOps0_1]
  after_results_simp
theorem select_call_dst (W : Valuation τ sig (Elt Ideal)) :
    after hostOps0_1 W (Proc.devRef .tc main_v6) = W (Proc.devRef .tc main_v6) := by
  dsimp only [hostOps0_1]
  after_results_simp

/-- The edge weights are computed before the first launch: the call selects the inverse square root where the
    degree is positive, and the last stretch multiplies its values at the two ends of every edge. -/
theorem weight_at_entry₁ (c : Dev nD) :
    W3 m ρ c (Proc.devRef .tc main_v29) = edgeWeight (F := Ideal) (m ((c.tc : Thread nD τ).loc main_arg1)) := by
  show after hostOps0_2 (after hostOps0_1 (after hostOps0 (W0 m ρ c))) (Proc.devRef .tc main_v29) = _
  have e5 := src_first m ρ c
  have e6 := dst_first m ρ c
  have e12 := positive_first m ρ c
  have e13 := rsqrt_first m ρ c
  have ez := zero_first m ρ c
  generalize after hostOps0 (W0 m ρ c) = W at e5 e6 e12 e13 ez ⊢
  have k5 := select_call_src W
  have k6 := select_call_dst W
  have k14 := select_call W
  generalize after hostOps0_1 W = W' at k5 k6 k14 ⊢
  dsimp only [hostOps0_2]
  after_results_simp
  rw [k5, k6, k14, e5, e6, e12, e13, ez]
  unfold edgeWeight degInvSqrt wrapIdx
  rfl

/-- An argument is still as launched when the first launch is entered: no host operation before it writes one. -/
theorem arg0_at_entry₁ (c : Dev nD) : V3 m ρ c main_arg0 = m ((c.tc : Thread nD τ).loc main_arg0) := by
  show after hostOps0_2 (after hostOps0_1 (after hostOps0 (W0 m ρ c))) (Proc.devRef .tc main_arg0) = _
  dsimp only [hostOps0, hostOps0_1, hostOps0_2]
  after_results_simp <;> rfl
theorem arg2_at_entry₁ (c : Dev nD) : V3 m ρ c main_arg2 = m ((c.tc : Thread nD τ).loc main_arg2) := by
  show after hostOps0_2 (after hostOps0_1 (after hostOps0 (W0 m ρ c))) (Proc.devRef .tc main_arg2) = _
  dsimp only [hostOps0, hostOps0_1, hostOps0_2]
  after_results_simp <;> rfl
theorem arg3_at_entry₁ (c : Dev nD) : W3 m ρ c (Proc.devRef .tc main_arg3) = m ((c.tc : Thread nD τ).loc main_arg3) := by
  show after hostOps0_2 (after hostOps0_1 (after hostOps0 (W0 m ρ c))) (Proc.devRef .tc main_arg3) = _
  dsimp only [hostOps0, hostOps0_1, hostOps0_2]
  after_results_simp <;> rfl
theorem arg4_at_entry₁ (c : Dev nD) : W3 m ρ c (Proc.devRef .tc main_arg4) = m ((c.tc : Thread nD τ).loc main_arg4) := by
  show after hostOps0_2 (after hostOps0_1 (after hostOps0 (W0 m ρ c))) (Proc.devRef .tc main_arg4) = _
  dsimp only [hostOps0, hostOps0_1, hostOps0_2]
  after_results_simp <;> rfl
theorem arg5_at_entry₁ (c : Dev nD) : W3 m ρ c (Proc.devRef .tc main_arg5) = m ((c.tc : Thread nD τ).loc main_arg5) := by
  show after hostOps0_2 (after hostOps0_1 (after hostOps0 (W0 m ρ c))) (Proc.devRef .tc main_arg5) = _
  dsimp only [hostOps0, hostOps0_1, hostOps0_2]
  after_results_simp <;> rfl

end Cert.KernelIdeal.Fold

end
-- ==== Proof.FoldHidden.lean ====
/-
  The kernel program's buffers from the first launch's exit to the second launch's entry.

  The first launch leaves the product of the node features and the first weights in its output array and touches
  nothing else that is read later.  The operations after it gather the product's rows by source, weight them, add
  them up by destination, add the first bias row and take the maximum with zero: the hidden features.  They write
  neither the columns, nor the weights, nor an argument.
-/
import proofs.«154226_j17592186044939_2_alg».proof.Proof.Gen.KernelIdeal.Frame
import proofs.«154226_j17592186044939_2_alg».proof.Proof.Layers
import proofs.«154226_j17592186044939_2_alg».proof.Proof.DenseBlocks
import proofs.«154226_j17592186044939_2_alg».proof.Proof.FoldEntry
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

/-! ## After the first launch -/

/-- The first launch leaves the host's product of the node features and the first weights. -/
theorem dense_at_exit₁ (c : Dev nD) :
    W4 m ρ c (Proc.devRef .tc main_v30)
      = hostDense₁ (F := Ideal) (m ((c.tc : Thread nD τ).loc main_arg0)) (m ((c.tc : Thread nD τ).loc main_arg2)) :=
  ((W4_arr m ρ c 2).trans (Cert.KernelIdeal.Dense.product₁ (V3 m ρ) c)).trans
    (congr (congrArg (hostDense₁ (F := Ideal)) (arg0_at_entry₁ m ρ c)) (arg2_at_entry₁ m ρ c))

/-- What the first launch does not write it leaves: the columns, the weights, the later arguments. -/
theorem src_at_exit₁ (c : Dev nD) :
    W4 m ρ c (Proc.devRef .tc main_v5) = srcIdx (F := Ideal) (m ((c.tc : Thread nD τ).loc main_arg1)) :=
  (W4_of_ne m ρ c main_v5 (by decide)).trans (src_at_entry₁ m ρ c)
theorem dst_at_exit₁ (c : Dev nD) :
    W4 m ρ c (Proc.devRef .tc main_v6) = dstIdx (F := Ideal) (m ((c.tc : Thread nD τ).loc main_arg1)) :=
  (W4_of_ne m ρ c main_v6 (by decide)).trans (dst_at_entry₁ m ρ c)
theorem weight_at_exit₁ (c : Dev nD) :
    W4 m ρ c (Proc.devRef .tc main_v29) = edgeWeight (F := Ideal) (m ((c.tc : Thread nD τ).loc main_arg1)) :=
  (W4_of_ne m ρ c main_v29 (by decide)).trans (weight_at_entry₁ m ρ c)
theorem arg3_at_exit₁ (c : Dev nD) : W4 m ρ c (Proc.devRef .tc main_arg3) = m ((c.tc : Thread nD τ).loc main_arg3) :=
  (W4_of_ne m ρ c main_arg3 (by decide)).trans (arg3_at_entry₁ m ρ c)
theorem arg4_at_exit₁ (c : Dev nD) : W4 m ρ c (Proc.devRef .tc main_arg4) = m ((c.tc : Thread nD τ).loc main_arg4) :=
  (W4_of_ne m ρ c main_arg4 (by decide)).trans (arg4_at_entry₁ m ρ c)
theorem arg5_at_exit₁ (c : Dev nD) : W4 m ρ c (Proc.devRef .tc main_arg5) = m ((c.tc : Thread nD τ).loc main_arg5) :=
  (W4_of_ne m ρ c main_arg5 (by decide)).trans (arg5_at_entry₁ m ρ c)

/-! ## Before the second launch -/

/-- The first layer before its maximum with zero, computed by the stretch after the first launch. -/
theorem pre_activation (c : Dev nD) :
    after hostOps1 (W4 m ρ c) (Proc.devRef .tc main_v46)
      = preActivation (F := Ideal) (m ((c.tc : Thread nD τ).loc main_arg1))
          (hostDense₁ (F := Ideal) (m ((c.tc : Thread nD τ).loc main_arg0)) (m ((c.tc : Thread nD τ).loc main_arg2)))
          (m ((c.tc : Thread nD τ).loc main_arg3)) := by
  dsimp only [hostOps1]
  after_results_simp
  rw [dense_at_exit₁ m ρ c, src_at_exit₁ m ρ c, dst_at_exit₁ m ρ c, weight_at_exit₁ m ρ c, arg3_at_exit₁ m ρ c]
  unfold preActivation wrapIdx
  rfl

/-- The call that takes the maximum with zero, over any contents. -/
theorem relu_call (W : Valuation τ sig (Elt Ideal)) :
    after hostOps1_1 W (Proc.devRef .tc main_v47)
      = maximumf (W (Proc.devRef .tc main_v46))
          (broadcastInDim S100000x32 ![] bcast_S_S100000x32 (constant (F := Ideal) S_ .f32 0x00000000#32)) := by
  dsimp only [hostOps1_1]
  after_results_simp
  rfl

/-- The hidden features: the first layer's steps after its dense product. -/
theorem hidden_at_entry₂ (c : Dev nD) :
    V6 m ρ c main_v47
      = hiddenLayer (F := Ideal) (m ((c.tc : Thread nD τ).loc main_arg1))
          (hostDense₁ (F := Ideal) (m ((c.tc : Thread nD τ).loc main_arg0)) (m ((c.tc : Thread nD τ).loc main_arg2)))
          (m ((c.tc : Thread nD τ).loc main_arg3)) := by
  show after hostOps1_1 (after hostOps1 (W4 m ρ c)) (Proc.devRef .tc main_v47) = _
  rw [relu_call, pre_activation m ρ c]
  rfl

/-- The operations between the launches write none of the columns, the weights or the later arguments. -/
theorem src_at_entry₂ (c : Dev nD) :
    W6 m ρ c (Proc.devRef .tc main_v5) = srcIdx (F := Ideal) (m ((c.tc : Thread nD τ).loc main_arg1)) := by
  refine Eq.trans ?_ (src_at_exit₁ m ρ c)
  show after hostOps1_1 (after hostOps1 (W4 m ρ c)) (Proc.devRef .tc main_v5) = _
  dsimp only [hostOps1, hostOps1_1]
  after_results_simp <;> rfl
theorem dst_at_entry₂ (c : Dev nD) :
    W6 m ρ c (Proc.devRef .tc main_v6) = dstIdx (F := Ideal) (m ((c.tc : Thread nD τ).loc main_arg1)) := by
  refine Eq.trans ?_ (dst_at_exit₁ m ρ c)
  show after hostOps1_1 (after hostOps1 (W4 m ρ c)) (Proc.devRef .tc main_v6) = _
  dsimp only [hostOps1, hostOps1_1]
  after_results_simp <;> rfl
theorem weight_at_entry₂ (c : Dev nD) :
    W6 m ρ c (Proc.devRef .tc main_v29) = edgeWeight (F := Ideal) (m ((c.tc : Thread nD τ).loc main_arg1)) := by
  refine Eq.trans ?_ (weight_at_exit₁ m ρ c)
  show after hostOps1_1 (after hostOps1 (W4 m ρ c)) (Proc.devRef .tc main_v29) = _
  dsimp only [hostOps1, hostOps1_1]
  after_results_simp <;> rfl
theorem arg4_at_entry₂ (c : Dev nD) : V6 m ρ c main_arg4 = m ((c.tc : Thread nD τ).loc main_arg4) := by
  refine Eq.trans ?_ (arg4_at_exit₁ m ρ c)
  show after hostOps1_1 (after hostOps1 (W4 m ρ c)) (Proc.devRef .tc main_arg4) = _
  dsimp only [hostOps1, hostOps1_1]
  after_results_simp <;> rfl
theorem arg5_at_entry₂ (c : Dev nD) : W6 m ρ c (Proc.devRef .tc main_arg5) = m ((c.tc : Thread nD τ).loc main_arg5) := by
  refine Eq.trans ?_ (arg5_at_exit₁ m ρ c)
  show after hostOps1_1 (after hostOps1 (W4 m ρ c)) (Proc.devRef .tc main_arg5) = _
  dsimp only [hostOps1, hostOps1_1]
  after_results_simp <;> rfl

end Cert.KernelIdeal.Fold

end
-- ==== Proof.FoldResult.lean ====
/-
  The kernel program's result buffer.

  The second launch leaves the product of the hidden features and the second weights; the last host operations
  aggregate its rows along the edges as before and add the second bias row.  Composed with the earlier boundaries:
  the result buffer ends at the network over the host's two products.
-/
import proofs.«154226_j17592186044939_2_alg».proof.Proof.Gen.KernelIdeal.Frame
import proofs.«154226_j17592186044939_2_alg».proof.Proof.Layers
import proofs.«154226_j17592186044939_2_alg».proof.Proof.DenseBlocks
import proofs.«154226_j17592186044939_2_alg».proof.Proof.FoldHidden
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.Gcn

variable (m : (ℓ : Loc nD τ sig) → Buf (Elt Ideal) ℓ) (ρ : Dev nD → PrngReg)

/-! ## After the second launch -/

/-- The second launch leaves the host's product of the hidden features and the second weights. -/
theorem dense_at_exit₂ (c : Dev nD) :
    W7 m ρ c (Proc.devRef .tc main_v48)
      = hostDense₂ (F := Ideal)
          (hiddenLayer (F := Ideal) (m ((c.tc : Thread nD τ).loc main_arg1))
            (hostDense₁ (F := Ideal) (m ((c.tc : Thread nD τ).loc main_arg0)) (m ((c.tc : Thread nD τ).loc main_arg2)))
            (m ((c.tc : Thread nD τ).loc main_arg3)))
          (m ((c.tc : Thread nD τ).loc main_arg4)) :=
  ((W7_arr m ρ c 2).trans (Cert.KernelIdeal.Dense.product₂ (V6 m ρ) c)).trans
    (congr (congrArg (hostDense₂ (F := Ideal)) (hidden_at_entry₂ m ρ c)) (arg4_at_entry₂ m ρ c))

theorem src_at_exit₂ (c : Dev nD) :
    W7 m ρ c (Proc.devRef .tc main_v5) = srcIdx (F := Ideal) (m ((c.tc : Thread nD τ).loc main_arg1)) :=
  (W7_of_ne m ρ c main_v5 (by decide)).trans (src_at_entry₂ m ρ c)
theorem dst_at_exit₂ (c : Dev nD) :
    W7 m ρ c (Proc.devRef .tc main_v6) = dstIdx (F := Ideal) (m ((c.tc : Thread nD τ).loc main_arg1)) :=
  (W7_of_ne m ρ c main_v6 (by decide)).trans (dst_at_entry₂ m ρ c)
theorem weight_at_exit₂ (c : Dev nD) :
    W7 m ρ c (Proc.devRef .tc main_v29) = edgeWeight (F := Ideal) (m ((c.tc : Thread nD τ).loc main_arg1)) :=
  (W7_of_ne m ρ c main_v29 (by decide)).trans (weight_at_entry₂ m ρ c)
theorem arg5_at_exit₂ (c : Dev nD) : W7 m ρ c (Proc.devRef .tc main_arg5) = m ((c.tc : Thread nD τ).loc main_arg5) :=
  (W7_of_ne m ρ c main_arg5 (by decide)).trans (arg5_at_entry₂ m ρ c)

/-! ## The result -/

/-- The result buffer ends at the network over the host's two products. -/
theorem result_eq (c : Dev nD) :
    W8 m ρ c (Proc.devRef .tc main_v64)
      = network (F := Ideal) hostDense₁ hostDense₂
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  show after hostOps2 (W7 m ρ c) (Proc.devRef .tc main_v64) = _
  dsimp only [hostOps2]
  after_results_simp
  rw [dense_at_exit₂ m ρ c, src_at_exit₂ m ρ c, dst_at_exit₂ m ρ c, weight_at_exit₂ m ρ c, arg5_at_exit₂ m ρ c]
  unfold network outputLayer wrapIdx
  rfl

end Cert.KernelIdeal.Fold

end
-- ==== Proof.RefNetwork.lean ====
/-
  The reference computes the network with the host's `dot_general` as both dense products.

  Its run's result term is, operation for operation, the composition of the layer functions: the source and
  destination columns, the degree and the edge weights are written out once per layer in the program, and each
  copy is the same function of the edge list.
-/
import proofs.«154226_j17592186044939_2_alg».proof.Proof.RefRunPatched
import proofs.«154226_j17592186044939_2_alg».proof.Proof.Layers

set_option maxRecDepth 16384

noncomputable section

namespace Cert.Gcn

open Cert.ReferenceIdeal Idealize.ShloMosaic Idealize.ShloMosaic.TcCoe Idealize.SL.Sem

variable {F : FTy → Type} [FloatOps F]

/-- The reference's result is the network over the host's two products. -/
theorem reference_eq (m : (ℓ : Loc nD τ sig) → Buf (Elt F) ℓ) (c : Dev nD) :
    Cert.ReferenceIdeal.ValueP.res_main_v90 (F := F) m c
      = network hostDense₁ hostDense₂ (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90 network outputLayer hiddenLayer preActivation edgeWeight degInvSqrt degree wrapIdx srcIdx dstIdx
    hostDense₁ hostDense₂
  rfl

end Cert.Gcn

end
-- ==== Proof.lean ====
/-
  A two-layer graph convolution with its two dense products in kernel launches, against the same network with the
  host's `dot_general`: equal results over the extended reals.

  Both programs extend the edge list by a self loop per node, count every node's in-degree, weight an edge by the
  inverse square roots of its two end nodes' degrees, and compute  out = A·(relu(A·(x·W₁) + b₁)·W₂) + b₂,  where A·h
  adds the weighted row of h at an edge's source into the row at its destination.  They differ only in the two
  products: the kernel program computes each in 20 row blocks of 5000 rows, a matrix product into a zero
  accumulator after a change of float format that is the identity at the ideal values.  A row block of a product is
  the product of the row block, and both products are the same finite sum over the contracted axis, so each launch
  leaves exactly what `dot_general` leaves (Proof/DenseBlocks.lean); every other operation is the same operation
  of the same operands in both programs (Proof/Layers.lean names them; Proof/FoldEntry.lean, FoldHidden.lean,
  FoldResult.lean and Proof/RefNetwork.lean read each program as their composition).  No law of arithmetic that could fail at an
  infinity is used, so the finiteness of the inputs is not needed.  The idealization rewrote no operation, so
  `preserves` has nothing to state; the three frames are the programs' runs with the results forgotten.
-/
import proofs.«154226_j17592186044939_2_alg».proof.Defs
import proofs.«154226_j17592186044939_2_alg».proof.Proof.Gen.Kernel
import proofs.«154226_j17592186044939_2_alg».proof.Proof.Gen.Kernel.Skeleton
import proofs.«154226_j17592186044939_2_alg».proof.Proof.Gen.Kernel.Launch
import proofs.«154226_j17592186044939_2_alg».proof.Proof.Gen.Kernel.Points
import proofs.«154226_j17592186044939_2_alg».proof.Proof.Gen.Kernel.Frame
import proofs.«154226_j17592186044939_2_alg».proof.Proof.Gen.KernelIdeal
import proofs.«154226_j17592186044939_2_alg».proof.Proof.Gen.KernelIdeal.Skeleton
import proofs.«154226_j17592186044939_2_alg».proof.Proof.Gen.KernelIdeal.Launch
import proofs.«154226_j17592186044939_2_alg».proof.Proof.Gen.KernelIdeal.Points
import proofs.«154226_j17592186044939_2_alg».proof.Proof.Gen.KernelIdeal.Frame
import proofs.«154226_j17592186044939_2_alg».proof.Proof.Gen.ReferenceIdeal
import proofs.«154226_j17592186044939_2_alg».proof.Proof.Gen.Pre_finite_inputs
import proofs.«154226_j17592186044939_2_alg».proof.Proof.KernelRun
import proofs.«154226_j17592186044939_2_alg».proof.Proof.FoldResult
import proofs.«154226_j17592186044939_2_alg».proof.Proof.RefRunPatched
import proofs.«154226_j17592186044939_2_alg».proof.Proof.RefNetwork
import Idealize.ShloMosaic.Adequacy
import Idealize.ShloMosaic.Init

noncomputable section

namespace Cert.Proof

open Idealize.ShloMosaic Idealize.ShloMosaic.TcCoe Idealize.SL.Sem

/-- The kernel program as printed runs and returns its arguments unchanged. -/
theorem frame_kernel : Cert.frame_Kernel := fun m ρ _ => Cert.Kernel.Gen.frame m ρ

/-- So does the kernel program read at the ideal values. -/
theorem frame_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the network's value: the kernel program over
    its launches' products, which are the host's; the reference over the host's. -/
theorem algebraic : Cert.algebraic_KernelIdeal_ReferenceIdeal := by
  intro m ρ m' ρ' _ hagree
  refine ⟨fun c => Cert.Gcn.network (F := Ideal) Cert.Gcn.hostDense₁ Cert.Gcn.hostDense₂
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.Gcn.reference_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
